-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn {F : FTy → Type} [FloatOps F] (main_arg0 : FVec F S16x128x128x64 .f32) (main_arg1 : FVec F S16x128x128x64 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_v4 : FVec F S16x128x128x64 .f32 := Host.absf main_arg1
  let main_cst_0 : FVec F S_ .f32 := constant S_ .f32 0x7F800000#32
  let main_v5 : FVec F S16x128x128x64 .f32 := broadcastInDim S16x128x128x64 ![] bcast_S_S16x128x128x64 main_cst_0
  let main_v6 : IVec S16x128x128x64 1 := cmpf .olt main_v4 main_v5
  let main_c_1 : IVec S_ 1 := constantI S_ 1 1#1
  let main_v7 : IVec S_ 1 := (fun x v => Host.reduce IntOp.andi x v reducesTo_S16x128x128x64_S_d0_1_2_3 h_S_) main_v6 main_c_1
  let main_v8 : IVec S_ 1 := andi main_v3 main_v7
  main_v8
-- ==== Kernel.lean ====
abbrev S16x128x128x64 : Shape := ⟨4, ![16, 128, 128, 64]⟩
abbrev S2x16x128x2x128x128 : Shape := ⟨6, ![2, 16, 128, 2, 128, 128]⟩
abbrev S1x64x128x64 : Shape := ⟨4, ![1, 64, 128, 64]⟩
abbrev S2x1x64x2x128x128 : Shape := ⟨6, ![2, 1, 64, 2, 128, 128]⟩
abbrev S64x128x64 : Shape := ⟨3, ![64, 128, 64]⟩
abbrev S64x128x128 : Shape := ⟨3, ![64, 128, 128]⟩
abbrev S1x1x64x1x128x128 : Shape := ⟨6, ![1, 1, 64, 1, 128, 128]⟩
abbrev S2x16x256x256x64 : Shape := ⟨5, ![2, 16, 256, 256, 64]⟩

abbrev nBuf : Space → Nat
  | .hbm => 4
  | .vmem => 6
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .f32⟩
  | .hbm, ⟨2, _⟩ => ⟨S2x16x128x2x128x128, .f32⟩
  | .hbm, ⟨3, _⟩ => ⟨S2x16x256x256x64, .f32⟩
  | .local _ .vmem, ⟨0, _⟩ => ⟨S1x64x128x64, .f32⟩
  | .local _ .vmem, ⟨1, _⟩ => ⟨S1x64x128x64, .f32⟩
  | .local _ .vmem, ⟨2, _⟩ => ⟨S1x64x128x64, .f32⟩
  | .local _ .vmem, ⟨3, _⟩ => ⟨S1x64x128x64, .f32⟩
  | .local _ .vmem, ⟨4, _⟩ => ⟨S2x1x64x2x128x128, .f32⟩
  | .local _ .vmem, ⟨5, _⟩ => ⟨S2x1x64x2x128x128, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, arg1.toNat, c0_i32_0.toNat, c0_i32_1.toNat, c0_i32_2.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x64x2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x128x64_S1x64x128x64_0_0_0_0 : ∀ a, (![0, 0, 0, 0] : Fin 4 → Nat) a + S1x64x128x64.size a ≤ S1x64x128x64.size a
  h_S1x64x128x64 : 0 < S1x64x128x64.numel
  shapeCasts_S1x64x128x64_S64x128x64 : S1x64x128x64.ShapeCasts S64x128x64
  concatenates_S64x128x64_S64x128x64_S64x128x128_d2 : Shape.Concatenates [S64x128x64, S64x128x64] S64x128x128 2
  inb_S2x1x64x2x128x128_S1x1x64x1x128x128_0_0_0_0_0_0 : ∀ a, (![0, 0, 0, 0, 0, 0] : Fin 6 → Nat) a + S1x1x64x1x128x128.size a ≤ S2x1x64x2x128x128.size a
  h_S1x1x64x1x128x128 : 0 < S1x1x64x1x128x128.numel
  shapeCasts_S1x1x64x1x128x128_S64x128x128 : S1x1x64x1x128x128.ShapeCasts S64x128x128
  shapeCasts_S64x128x128_S1x1x64x1x128x128 : S64x128x128.ShapeCasts S1x1x64x1x128x128
  inb_S2x1x64x2x128x128_S1x1x64x1x128x128_0_0_0_1_0_0 : ∀ a, (![0, 0, 0, 1, 0, 0] : Fin 6 → Nat) a + S1x1x64x1x128x128.size a ≤ S2x1x64x2x128x128.size a
  inb_S2x1x64x2x128x128_S1x1x64x1x128x128_1_0_0_0_0_0 : ∀ a, (![1, 0, 0, 0, 0, 0] : Fin 6 → Nat) a + S1x1x64x1x128x128.size a ≤ S2x1x64x2x128x128.size a
  inb_S2x1x64x2x128x128_S1x1x64x1x128x128_1_0_0_1_0_0 : ∀ a, (![1, 0, 0, 1, 0, 0] : Fin 6 → Nat) a + S1x1x64x1x128x128.size a ≤ S2x1x64x2x128x128.size a
  shapeCasts_S2x16x128x2x128x128_S2x16x256x256x64 : S2x16x128x2x128x128.ShapeCasts S2x16x256x256x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x64.size a ≤ S16x128x128x64.size a
  hwx0_0 : ∀ i : grid0.Coords, EltTy.bits .f32 = 32 ∨ (Rect.block (s := S16x128x128x64) S1x64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x64.size a ≤ S16x128x128x64.size a
  hwx0_1 : ∀ i : grid0.Coords, EltTy.bits .f32 = 32 ∨ (Rect.block (s := S16x128x128x64) S1x64x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x64x2x128x128.size a ≤ S2x16x128x2x128x128.size a
  hwx0_2 : ∀ i : grid0.Coords, EltTy.bits .f32 = 32 ∨ (Rect.block (s := S2x16x128x2x128x128) S2x1x64x2x128x128.size (cc0_transform_2 i) (hinb0_2 i)).WholeWords (EltTy.packing .f32)

variable [Facts₀]

abbrev win0_0 : Pipeline.Window sig grid0 :=
  Pipeline.Window.ofSpec (Memref.whole main_arg0) S1x64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1x64x2x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S256 : Shape := ⟨1, ![256]⟩
abbrev S_ : Shape := ⟨0, ![]⟩
abbrev S256x1 : Shape := ⟨2, ![256, 1]⟩
abbrev S16x256x128x64 : Shape := ⟨4, ![16, 256, 128, 64]⟩
abbrev S16x256x256x64 : Shape := ⟨4, ![16, 256, 256, 64]⟩
abbrev S1x16x256x256x64 : Shape := ⟨5, ![1, 16, 256, 256, 64]⟩
abbrev S2x16x256x256x64 : Shape := ⟨5, ![2, 16, 256, 256, 64]⟩

abbrev nBuf : Space → Nat
  | .hbm => 129
  | .vmem => 0
  | .smem => 0
  | _ => 0

abbrev hbmTy0_0 (i : Nat) : BufTy := match i % 128 with
  | 0 => ⟨S16x128x128x64, .f32⟩
  | 1 => ⟨S16x128x128x64, .f32⟩
  | 2 => ⟨S256, .i32⟩
  | 3 => ⟨S_, .i32⟩
  | 4 => ⟨S256, .i32⟩
  | 5 => ⟨S256, .i32⟩
  | 6 => ⟨S_, .i32⟩
  | 7 => ⟨S_, .i32⟩
  | 8 => ⟨S256, .i32⟩
  | 9 => ⟨S256, .i32⟩
  | 10 => ⟨S256, .i32⟩
  | 11 => ⟨S_, .i32⟩
  | 12 => ⟨S256, .i32⟩
  | 13 => ⟨S256, .i1⟩
  | 14 => ⟨S256, .i32⟩
  | 15 => ⟨S256, .i32⟩
  | 16 => ⟨S_, .i32⟩
  | 17 => ⟨S256, .i32⟩
  | 18 => ⟨S256, .i1⟩
  | 19 => ⟨S256, .i1⟩
  | 20 => ⟨S_, .i32⟩
  | 21 => ⟨S256, .i32⟩
  | 22 => ⟨S256, .i32⟩
  | 23 => ⟨S256, .i32⟩
  | 24 => ⟨S256, .i32⟩
  | 25 => ⟨S_, .i32⟩
  | 26 => ⟨S256, .i32⟩
  | 27 => ⟨S256, .i32⟩
  | 28 => ⟨S_, .i32⟩
  | 29 => ⟨S_, .i32⟩
  | 30 => ⟨S256, .i32⟩
  | 31 => ⟨S256, .i32⟩
  | 32 => ⟨S256, .i32⟩
  | 33 => ⟨S_, .i32⟩
  | 34 => ⟨S256, .i32⟩
  | 35 => ⟨S256, .i1⟩
  | 36 => ⟨S256, .i32⟩
  | 37 => ⟨S256, .i32⟩
  | 38 => ⟨S_, .i32⟩
  | 39 => ⟨S256, .i32⟩
  | 40 => ⟨S256, .i1⟩
  | 41 => ⟨S256, .i1⟩
  | 42 => ⟨S_, .i32⟩
  | 43 => ⟨S256, .i32⟩
  | 44 => ⟨S256, .i32⟩
  | 45 => ⟨S256, .i32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S16x256x128x64, .f32⟩
  | 55 => ⟨S_, .i32⟩
  | 56 => ⟨S256, .i32⟩
  | 57 => ⟨S256, .i1⟩
  | 58 => ⟨S_, .i32⟩
  | 59 => ⟨S256, .i32⟩
  | 60 => ⟨S256, .i32⟩
  | 61 => ⟨S256, .i32⟩
  | 62 => ⟨S256x1, .i32⟩
  | 63 => ⟨S16x256x256x64, .f32⟩
  | 64 => ⟨S256, .i32⟩
  | 65 => ⟨S_, .i32⟩
  | 66 => ⟨S256, .i32⟩
  | 67 => ⟨S256, .i32⟩
  | 68 => ⟨S_, .i32⟩
  | 69 => ⟨S_, .i32⟩
  | 70 => ⟨S256, .i32⟩
  | 71 => ⟨S256, .i32⟩
  | 72 => ⟨S256, .i32⟩
  | 73 => ⟨S_, .i32⟩
  | 74 => ⟨S256, .i32⟩
  | 75 => ⟨S256, .i1⟩
  | 76 => ⟨S256, .i32⟩
  | 77 => ⟨S256, .i32⟩
  | 78 => ⟨S_, .i32⟩
  | 79 => ⟨S256, .i32⟩
  | 80 => ⟨S256, .i1⟩
  | 81 => ⟨S256, .i1⟩
  | 82 => ⟨S_, .i32⟩
  | 83 => ⟨S256, .i32⟩
  | 84 => ⟨S256, .i32⟩
  | 85 => ⟨S256, .i32⟩
  | 86 => ⟨S256, .i32⟩
  | 87 => ⟨S_, .i32⟩
  | 88 => ⟨S256, .i32⟩
  | 89 => ⟨S256, .i32⟩
  | 90 => ⟨S_, .i32⟩
  | 91 => ⟨S_, .i32⟩
  | 92 => ⟨S256, .i32⟩
  | 93 => ⟨S256, .i32⟩
  | 94 => ⟨S256, .i32⟩
  | 95 => ⟨S_, .i32⟩
  | 96 => ⟨S256, .i32⟩
  | 97 => ⟨S256, .i1⟩
  | 98 => ⟨S256, .i32⟩
  | 99 => ⟨S256, .i32⟩
  | 100 => ⟨S_, .i32⟩
  | 101 => ⟨S256, .i32⟩
  | 102 => ⟨S256, .i1⟩
  | 103 => ⟨S256, .i1⟩
  | 104 => ⟨S_, .i32⟩
  | 105 => ⟨S256, .i32⟩
  | 106 => ⟨S256, .i32⟩
  | 107 => ⟨S256, .i32⟩
  | 108 => ⟨S_, .i32⟩
  | 109 => ⟨S256, .i32⟩
  | 110 => ⟨S256, .i1⟩
  | 111 => ⟨S_, .i32⟩
  | 112 => ⟨S256, .i32⟩
  | 113 => ⟨S256, .i32⟩
  | 114 => ⟨S256, .i32⟩
  | 115 => ⟨S256x1, .i32⟩
  | 116 => ⟨S16x256x128x64, .f32⟩
  | 117 => ⟨S_, .i32⟩
  | 118 => ⟨S256, .i32⟩
  | 119 => ⟨S256, .i1⟩
  | 120 => ⟨S_, .i32⟩
  | 121 => ⟨S256, .i32⟩
  | 122 => ⟨S256, .i32⟩
  | 123 => ⟨S256, .i32⟩
  | 124 => ⟨S256x1, .i32⟩
  | 125 => ⟨S16x256x256x64, .f32⟩
  | 126 => ⟨S1x16x256x256x64, .f32⟩
  | 127 => ⟨S1x16x256x256x64, .f32⟩
  | _ => ⟨S16x128x128x64, .f32⟩

abbrev hbmTy0_1 (i : Nat) : BufTy := match i % 128 with
  | 0 => ⟨S2x16x256x256x64, .f32⟩
  | _ => ⟨S16x128x128x64, .f32⟩

abbrev hbmTy (i : Nat) : BufTy := match i / 128 with
  | 0 => hbmTy0_0 i
  | 1 => hbmTy0_1 i
  | _ => ⟨S16x128x128x64, .f32⟩

abbrev bufTy : (tb : Table) → Fin (tcTables nBuf tb) → BufTy
  | .hbm, ⟨i, _⟩ => hbmTy i
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_c_3 : Ref sig .tc := ⟨.hbm, 46, rfl⟩
abbrev main_v8 : Ref sig .tc := ⟨.hbm, 47, rfl⟩
abbrev main_v9 : Ref sig .tc := ⟨.hbm, 48, rfl⟩
abbrev main_c_4 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_5 : Ref sig .tc := ⟨.hbm, 55, rfl⟩
abbrev main_v15 : Ref sig .tc := ⟨.hbm, 56, rfl⟩
abbrev main_v16 : Ref sig .tc := ⟨.hbm, 57, rfl⟩
abbrev main_c_6 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_c_7 : Ref sig .tc := ⟨.hbm, 65, rfl⟩
abbrev main_v23 : Ref sig .tc := ⟨.hbm, 66, rfl⟩
abbrev main_v24 : Ref sig .tc := ⟨.hbm, 67, rfl⟩
abbrev main_c_8 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v25 : Ref sig .tc := ⟨.hbm, 85, rfl⟩
abbrev main_v26 : Ref sig .tc := ⟨.hbm, 86, rfl⟩
abbrev main_c_9 : Ref sig .tc := ⟨.hbm, 87, rfl⟩
abbrev main_v27 : Ref sig .tc := ⟨.hbm, 88, rfl⟩
abbrev main_v28 : Ref sig .tc := ⟨.hbm, 89, rfl⟩
abbrev main_c_10 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_c : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_0 : Ref sig .tc := ⟨.hbm, 104, rfl⟩
abbrev main_call3_v12 : Ref sig .tc := ⟨.hbm, 105, rfl⟩
abbrev main_call3_v13 : Ref sig .tc := ⟨.hbm, 106, rfl⟩
abbrev main_v29 : Ref sig .tc := ⟨.hbm, 107, rfl⟩
abbrev main_c_11 : Ref sig .tc := ⟨.hbm, 108, rfl⟩
abbrev main_v30 : Ref sig .tc := ⟨.hbm, 109, rfl⟩
abbrev main_v31 : Ref sig .tc := ⟨.hbm, 110, rfl⟩
abbrev main_c_12 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_c_13 : Ref sig .tc := ⟨.hbm, 117, rfl⟩
abbrev main_v37 : Ref sig .tc := ⟨.hbm, 118, rfl⟩
abbrev main_v38 : Ref sig .tc := ⟨.hbm, 119, rfl⟩
abbrev main_c_14 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S16x256x256x64_S1x16x256x256x64_1_2_3_4 : S16x256x256x64.BroadcastsInDim S1x16x256x256x64 (![1, 2, 3, 4] : Fin 4 → Fin S1x16x256x256x64.rank)
  concatenates_S1x16x256x256x64_S1x16x256x256x64_S2x16x256x256x64_d0 : Shape.Concatenates [S1x16x256x256x64, S1x16x256x256x64] S2x16x256x256x64 0
  gather_S16x128x128x64_S256x1_S16x256x128x64_023_1_n_n_1_1_16112864_wf : GatherDims.WF S16x128x128x64 S256x1 S16x256x128x64 [0, 2, 3] [1] [] [1] [] 1 ![16, 1, 128, 64]
  gather_S16x256x128x64_S256x1_S16x256x256x64_013_2_n_n_2_1_16256164_wf : GatherDims.WF S16x256x128x64 S256x1 S16x256x256x64 [0, 1, 3] [2] [] [2] [] 1 ![16, 256, 1, 64]

variable [Facts₀]

def gather_S16x128x128x64_S256x1_S16x256x128x64_023_1_n_n_1_1_16112864 : GatherDims S16x128x128x64 S256x1 S16x256x128x64 where
  offsetDims := [0, 2, 3]
  collapsedSliceDims := [1]
  operandBatchingDims := []
  startIndicesBatchingDims := []
  startIndexMap := [1]
  indexVectorDim := 1
  sliceSizes := ![16, 1, 128, 64]
  wf := gather_S16x128x128x64_S256x1_S16x256x128x64_023_1_n_n_1_1_16112864_wf
def gather_S16x256x128x64_S256x1_S16x256x256x64_013_2_n_n_2_1_16256164 : GatherDims S16x256x128x64 S256x1 S16x256x256x64 where
  offsetDims := [0, 1, 3]
  collapsedSliceDims := [2]
  operandBatchingDims := []
  startIndicesBatchingDims := []
  startIndexMap := [2]
  indexVectorDim := 1
  sliceSizes := ![16, 256, 1, 64]
  wf := gather_S16x256x128x64_S256x1_S16x256x256x64_013_2_n_n_2_1_16256164_wf

class Facts : Prop extends Facts₀ where

variable [Facts]
-- ==== Proof.Spec.lean ====
/-
  Nearest-neighbour doubling of the rows and the columns of two arrays of shape [16, 128, 128, 64]
  (image, row, column, channel), the two results stacked on a new leading axis: the function both programs
  compute. No arithmetic is done on the entries, so the element type is arbitrary.

  Output entry (p, b, i, j, c) — part p, image b, row i < 256, column j < 256, channel c — is entry
  (b, i / 2, j / 2, c) of the first array when p = 0 and of the second when p = 1: row i of the doubled
  image copies row i / 2, column j copies column j / 2.

  The same entries are also laid out as [2, 16, 128, 2, 128, 128]: (p, b, h, a, w, l) with the doubled row
  split as i = 2 h + a and the doubled column folded into the last axis as l = 64 d + c, j = 2 w + d. In that
  layout the entry is (b, h, w, l mod 64) of part p — it depends neither on a nor on d — and the two layouts
  list the entries in the same row-major order.
-/
import Idealize.ShloMosaic.Lib.ValueIdx
import Idealize.ShloMosaic.Lib.ValueIdxRank6

namespace Cert.Upsample

open Idealize.ShloMosaic Idealize.ShloMosaic.ValueIdx

/-- The source row (or column) a doubled row (or column) copies. -/
def half (i : Fin 256) : Fin 128 := ⟨i.val / 2, by omega⟩

/-- The channel held by a lane of the folded last axis: lanes `c` and `64 + c` both hold channel `c`. -/
def chan (l : Fin 128) : Fin 64 := ⟨l.val % 64, by omega⟩

theorem half_val (i : Fin 256) : (half i).val = i.val / 2 := rfl
theorem chan_val (l : Fin 128) : (chan l).val = l.val % 64 := rfl

/-- The stacked, doubled array as a function of the two input arrays. -/
def up {α : Type} (x0 x1 : (⟨4, ![16, 128, 128, 64]⟩ : Shape).Idx → α) :
    (⟨5, ![2, 16, 256, 256, 64]⟩ : Shape).Idx → α := fun j =>
  if (j 0).val = 0 then x0 (ix4 (j 1) (half (j 2)) (half (j 3)) (j 4))
  else x1 (ix4 (j 1) (half (j 2)) (half (j 3)) (j 4))

/-- The same entries in the layout [2, 16, 128, 2, 128, 128]. -/
def native {α : Type} (x0 x1 : (⟨4, ![16, 128, 128, 64]⟩ : Shape).Idx → α) :
    (⟨6, ![2, 16, 128, 2, 128, 128]⟩ : Shape).Idx → α := fun i =>
  if (i 0).val = 0 then x0 (ix4 (i 1) (i 2) (i 4) (chan (i 5)))
  else x1 (ix4 (i 1) (i 2) (i 4) (chan (i 5)))

/-- `up` at an index given by its coordinates. -/
theorem up_ix {α : Type} (x0 x1 : (⟨4, ![16, 128, 128, 64]⟩ : Shape).Idx → α)
    (p : Fin 2) (b : Fin 16) (i j : Fin 256) (c : Fin 64) :
    up x0 x1 (ix5 p b i j c)
      = if p.val = 0 then x0 (ix4 b (half i) (half j) c) else x1 (ix4 b (half i) (half j) c) := rfl

/-- `native` at an index given by its coordinates. -/
theorem native_ix {α : Type} (x0 x1 : (⟨4, ![16, 128, 128, 64]⟩ : Shape).Idx → α)
    (p : Fin 2) (b : Fin 16) (h : Fin 128) (a : Fin 2) (w l : Fin 128) :
    native x0 x1 (ix6 p b h a w l)
      = if p.val = 0 then x0 (ix4 b h w (chan l)) else x1 (ix4 b h w (chan l)) := rfl

end Cert.Upsample
-- ==== Proof.KernelPay.lean ====
/-
  What the kernel's body stores, read at an index. The body loads one block of 64 rows of each input,
  [1, 64, 128, 64]; drops the leading unit axis; lays two copies of the block side by side along the last axis,
  giving [64, 128, 128] with lane l holding channel l mod 64; and stores that slab, re-shaped to
  [1, 1, 64, 1, 128, 128], four times: for each part p (0 from the first input, 1 from the second) at both positions
  a = 0, 1 of the row-doubling axis of its [2, 1, 64, 2, 128, 128] output block. So the output block, as one
  function of the two input blocks, holds at (p, 0, h, a, w, l) the entry (0, h, w, l mod 64) of input block p
  (`blk`, `out_eq`).
-/
import proofs.«131714_j13778255086287_2_alg».proof.Proof.Gen.KernelIdeal.Frame
import proofs.«131714_j13778255086287_2_alg».proof.Proof.Spec
import Idealize.ShloMosaic.Lib.Pipeline.Value
import Idealize.ShloMosaic.Lib.ValueIdxRank6

noncomputable section

namespace Cert.Upsample.Kern

open Idealize.ShloMosaic Idealize.ShloMosaic.ValueIdx Cert.KernelIdeal Cert.KernelIdeal.Gen

variable {F : FTy → Type} [FloatOps F]

/-- Two copies of a [64, 128, 64] block side by side along the last axis: entry (h, w, l) is the block's
    entry (h, w, l mod 64) — lane l is in the first copy when l < 64 and in the second, at l - 64, otherwise. -/
theorem twice_apply {α : Type} (u : S64x128x64.Idx → α) (hc : Shape.Concatenates [S64x128x64, S64x128x64] S64x128x128 2)
    (h : Fin 64) (w l : Fin 128) :
    concatenate S64x128x128 2 [⟨S64x128x64, u⟩, ⟨S64x128x64, u⟩] hc (ix3 h w l) = u (ix3 h w (chan l)) := by
  by_cases hl : l.val < 64
  · refine (concatenate_pair_apply_left (s₁ := S64x128x64) (s₂ := S64x128x64) _ _ _ _ (ix3 h w l) rfl (ix3 h w (chan l)) ?_)
    intro b
    match b with
    | ⟨0, _⟩ => rfl
    | ⟨1, _⟩ => rfl
    | ⟨2, _⟩ => show l.val % 64 = l.val; omega
  · refine (concatenate_pair_apply_right (s₁ := S64x128x64) (s₂ := S64x128x64) _ _ _ _ (ix3 h w l) rfl rfl (ix3 h w (chan l)) ?_ ?_)
    · intro b hb
      match b, hb with
      | ⟨0, _⟩, _ => rfl
      | ⟨1, _⟩, _ => rfl
      | ⟨2, _⟩, hb => exact absurd rfl hb
    · show l.val % 64 + 64 = l.val
      have := l.isLt
      omega

/-- A [1, 64, 128, 64] block with its leading unit axis dropped: entry (h, w, c) is entry (0, h, w, c). -/
theorem drop_apply {α : Type} (v : S1x64x128x64.Idx → α) (hs : S1x64x128x64.ShapeCasts S64x128x64)
    (h : Fin 64) (w : Fin 128) (c : Fin 64) :
    shapeCast S64x128x64 v hs (ix3 h w c) = v (ix4 0 h w c) := by
  refine shapeCast_apply _ _ (ix3 h w c) (ix4 0 h w c) ?_
  rw [Shape.rowMajor_val_four, Shape.rowMajor_val_three]
  show ((0 * 64 + h.val) * 128 + w.val) * 64 + c.val = (h.val * 128 + w.val) * 64 + c.val
  omega

/-- A [64, 128, 128] slab re-shaped to [1, 1, 64, 1, 128, 128]: entry (0, 0, h, 0, w, l) is entry (h, w, l). -/
theorem slab_apply {α : Type} (s : S64x128x128.Idx → α) (hs : S64x128x128.ShapeCasts S1x1x64x1x128x128)
    (h : Fin 64) (w l : Fin 128) :
    shapeCast S1x1x64x1x128x128 s hs (ix6 0 0 h 0 w l) = s (ix3 h w l) := by
  refine shapeCast_apply _ _ (ix6 0 0 h 0 w l) (ix3 h w l) ?_
  rw [Shape.rowMajor_val_three, Shape.rowMajor_val_six]
  show (h.val * 128 + w.val) * 128 + l.val = ((((0 * 1 + 0) * 64 + h.val) * 1 + 0) * 128 + w.val) * 128 + l.val
  omega

/-- Every index of the stored slab's shape is (0, 0, h, 0, w, l). -/
theorem slab_idx (x : S1x1x64x1x128x128.Idx) : x = ix6 0 0 (x 2) 0 (x 4) (x 5) := by
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl
  | ⟨3, _⟩ => exact Fin.ext (by have h : (x 3).val < 1 := (x 3).isLt; show (x 3).val = 0; omega)
  | ⟨4, _⟩ => rfl
  | ⟨5, _⟩ => rfl

/-- The slab stored from the first input's block, at any of its indices. -/
theorem slab1_apply (v : Vec F S1x64x128x64 .f32) (x : S1x1x64x1x128x128.Idx) :
    shapeCast S1x1x64x1x128x128 (k0_pay1 v) Facts₀.shapeCasts_S64x128x128_S1x1x64x1x128x128 x
      = v (ix4 0 (x 2) (x 4) (chan (x 5))) := by
  conv_lhs => rw [slab_idx x]
  refine (slab_apply _ _ (x 2) (x 4) (x 5)).trans ?_
  unfold k0_pay1
  refine (twice_apply _ _ (x 2) (x 4) (x 5)).trans ?_
  exact drop_apply _ _ (x 2) (x 4) (chan (x 5))

/-- The slab stored from the second input's block, at any of its indices. -/
theorem slab2_apply (v : Vec F S1x64x128x64 .f32) (x : S1x1x64x1x128x128.Idx) :
    shapeCast S1x1x64x1x128x128 (k0_pay2 v) Facts₀.shapeCasts_S64x128x128_S1x1x64x1x128x128 x
      = v (ix4 0 (x 2) (x 4) (chan (x 5))) := by
  conv_lhs => rw [slab_idx x]
  refine (slab_apply _ _ (x 2) (x 4) (x 5)).trans ?_
  unfold k0_pay2
  refine (twice_apply _ _ (x 2) (x 4) (x 5)).trans ?_
  exact drop_apply _ _ (x 2) (x 4) (chan (x 5))

/-- The output block as one function of the two input blocks. -/
def blk {α : Type} (x0 x1 : S1x64x128x64.Idx → α) : S2x1x64x2x128x128.Idx → α := fun y =>
  if (y 0).val = 0 then x0 (ix4 0 (y 2) (y 4) (chan (y 5))) else x1 (ix4 0 (y 2) (y 4) (chan (y 5)))

theorem hz4 : (![0, 0, 0, 0] : Fin 4 → Nat) = fun _ => 0 := funext fun a => by fin_cases a <;> rfl

/-- A slab placed at part p and row-doubling position a of the output block lands on `blk`'s entries of part p. -/
theorem blk_emb0 {α : Type} (x0 x1 : S1x64x128x64.Idx → α)
    (x : S1x1x64x1x128x128.Idx) (y : S2x1x64x2x128x128.Idx)
    (h0 : (y 0).val = 0) (h2 : (y 2).val = (x 2).val) (h4 : (y 4).val = (x 4).val) (h5 : (y 5).val = (x 5).val) :
    blk x0 x1 y = x0 (ix4 0 (x 2) (x 4) (chan (x 5))) := by
  unfold blk
  rw [if_pos h0]
  refine congrArg x0 (funext fun a => Fin.ext ?_)
  match a with
  | ⟨0, _⟩ => rfl
  | ⟨1, _⟩ => exact h2
  | ⟨2, _⟩ => exact h4
  | ⟨3, _⟩ => show (y 5).val % 64 = (x 5).val % 64; rw [h5]

/-- The same for part 1. -/
theorem blk_emb1 {α : Type} (x0 x1 : S1x64x128x64.Idx → α)
    (x : S1x1x64x1x128x128.Idx) (y : S2x1x64x2x128x128.Idx)
    (h0 : (y 0).val = 1) (h2 : (y 2).val = (x 2).val) (h4 : (y 4).val = (x 4).val) (h5 : (y 5).val = (x 5).val) :
    blk x0 x1 y = x1 (ix4 0 (x 2) (x 4) (chan (x 5))) := by
  unfold blk
  rw [if_neg (by omega)]
  refine congrArg x1 (funext fun a => Fin.ext ?_)
  match a with
  | ⟨0, _⟩ => rfl
  | ⟨1, _⟩ => exact h2
  | ⟨2, _⟩ => exact h4
  | ⟨3, _⟩ => show (y 5).val % 64 = (x 5).val % 64; rw [h5]

/-- THE BODY'S RESULT: after its four stores the output block is `blk` of the two input blocks. -/
theorem out_eq (x0 x1 : Vec F S1x64x128x64 .f32) : out0_2 x0 x1 = blk x0 x1 := by
  funext y
  unfold out0_2
  refine View.canon_apply_of_pieces (blk x0 x1) _ ?_ y (cover0_2 _ _ _ _ y)
  intro p hp x
  simp only [List.mem_cons, List.mem_nil_iff, or_false] at hp
  rcases hp with rfl | rfl | rfl | rfl
  · show k0_pay6 (View.ld x1 r0_0) x = blk x0 x1 (r0_4.emb x)
    rw [View.ld_unit_zero (S := S1x64x128x64) hz4]
    refine (slab2_apply x1 x).trans (blk_emb1 x0 x1 x _ ?_ ?_ ?_ ?_).symm
    · show 1 + 1 * (x 0).val = 1; have h : (x 0).val < 1 := (x 0).isLt; omega
    · show 0 + 1 * (x 2).val = (x 2).val; omega
    · show 0 + 1 * (x 4).val = (x 4).val; omega
    · show 0 + 1 * (x 5).val = (x 5).val; omega
  · show k0_pay5 (View.ld x1 r0_0) x = blk x0 x1 (r0_3.emb x)
    rw [View.ld_unit_zero (S := S1x64x128x64) hz4]
    refine (slab2_apply x1 x).trans (blk_emb1 x0 x1 x _ ?_ ?_ ?_ ?_).symm
    · show 1 + 1 * (x 0).val = 1; have h : (x 0).val < 1 := (x 0).isLt; omega
    · show 0 + 1 * (x 2).val = (x 2).val; omega
    · show 0 + 1 * (x 4).val = (x 4).val; omega
    · show 0 + 1 * (x 5).val = (x 5).val; omega
  · show k0_pay4 (View.ld x0 r0_0) x = blk x0 x1 (r0_2.emb x)
    rw [View.ld_unit_zero (S := S1x64x128x64) hz4]
    refine (slab1_apply x0 x).trans (blk_emb0 x0 x1 x _ ?_ ?_ ?_ ?_).symm
    · show 0 + 1 * (x 0).val = 0; have h : (x 0).val < 1 := (x 0).isLt; omega
    · show 0 + 1 * (x 2).val = (x 2).val; omega
    · show 0 + 1 * (x 4).val = (x 4).val; omega
    · show 0 + 1 * (x 5).val = (x 5).val; omega
  · show k0_pay3 (View.ld x0 r0_0) x = blk x0 x1 (r0_1.emb x)
    rw [View.ld_unit_zero (S := S1x64x128x64) hz4]
    refine (slab1_apply x0 x).trans (blk_emb0 x0 x1 x _ ?_ ?_ ?_ ?_).symm
    · show 0 + 1 * (x 0).val = 0; have h : (x 0).val < 1 := (x 0).isLt; omega
    · show 0 + 1 * (x 2).val = (x 2).val; omega
    · show 0 + 1 * (x 4).val = (x 4).val; omega
    · show 0 + 1 * (x 5).val = (x 5).val; omega

end Cert.Upsample.Kern

end
-- ==== Proof.KernelArr.lean ====
/-
  From blocks to the array. The grid has 16 × 2 points (image b, half hh of the 128 rows). At point (b, hh) the
  kernel reads rows 64 hh … 64 hh + 63 of image b of each input and writes the block
  [2, 1, 64, 2, 128, 128] at block index (0, b, hh, 0, 0, 0) of its [2, 16, 128, 2, 128, 128] output. What a point
  writes back is that block of ONE function of the two inputs (`native`, Spec.lean): entry (p, b, h, a, w, l) is
  entry (b, h, w, l mod 64) of input p. The 32 blocks tile the array, so after the run the array is that function.
-/
import proofs.«131714_j13778255086287_2_alg».proof.Proof.KernelPay

noncomputable section

namespace Cert.Upsample.Kern

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The index maps over the grid: an input's block index is (b, hh, 0, 0) where the output's is (0, b, hh, 0, 0, 0),
    with b ≤ 15 and hh ≤ 1. -/
theorem idx_facts : ∀ t : Fin cfg0.N,
    win0_0.index t (0 : Fin 4) = win0_2.index t (1 : Fin 6) ∧ win0_0.index t (1 : Fin 4) = win0_2.index t (2 : Fin 6)
    ∧ win0_0.index t (2 : Fin 4) = 0 ∧ win0_0.index t (3 : Fin 4) = 0
    ∧ win0_1.index t (0 : Fin 4) = win0_2.index t (1 : Fin 6) ∧ win0_1.index t (1 : Fin 4) = win0_2.index t (2 : Fin 6)
    ∧ win0_1.index t (2 : Fin 4) = 0 ∧ win0_1.index t (3 : Fin 4) = 0
    ∧ win0_2.index t (0 : Fin 6) = 0 ∧ win0_2.index t (3 : Fin 6) = 0 ∧ win0_2.index t (4 : Fin 6) = 0
    ∧ win0_2.index t (5 : Fin 6) = 0 ∧ win0_2.index t (1 : Fin 6) ≤ 15 ∧ win0_2.index t (2 : Fin 6) ≤ 1 :=
  (by decide +kernel : ∀ t : Fin grid0.N, _)

/-- Every block (0, b, hh, 0, 0, 0) is some point's. -/
theorem idx_onto : ∀ (q1 : Fin 16) (q2 : Fin 2), ∃ t : Fin cfg0.N, win0_2.index t = ![0, q1.val, q2.val, 0, 0, 0] :=
  (by decide +kernel : ∀ (q1 : Fin 16) (q2 : Fin 2), ∃ t : Fin grid0.N, win0_2.index t = ![0, q1.val, q2.val, 0, 0, 0])

/-- WHAT POINT `t` WRITES BACK is block `t` of `native` of the input arrays as the region finds them. -/
theorem flushed_eq (c : Dev nD) (t : Fin cfg0.N) :
    (dats m 0 c).flushed 2 t
      = ((cfg0.win 2).blk t).view.read (Elt F) (native (V m c main_arg0) (V m c main_arg1)) := by
  show (cfg0.win 2).cut (grid0.coords t) ((dats m 0 c).after 2 t) = _
  rw [after0_2, out_eq]
  obtain ⟨e0, e1, e2, e3, f0, f1, f2, f3, g0, g3, g4, g5, b1, b2⟩ := idx_facts t
  funext j
  show blk (iblk m c 0 t) (iblk m c 1 t) j
    = native (V m c main_arg0) (V m c main_arg1) (((cfg0.win 2).blk t).view.emb j)
  have hj0 : (j 0).val < 2 := (j 0).isLt
  have hj1 : (j 1).val < 1 := (j 1).isLt
  have hj2 : (j 2).val < 64 := (j 2).isLt
  have hj4 : (j 4).val < 128 := (j 4).isLt
  have hj5 : (j 5).val < 128 := (j 5).isLt
  have hE0 : ((((cfg0.win 2).blk t).view.emb j) 0).val = (j 0).val := by
    show win0_2.index t (0 : Fin 6) * 2 + 1 * (j 0).val = (j 0).val; omega
  unfold blk native
  by_cases hp : (j 0).val = 0
  · rw [if_pos hp, if_pos (hE0.trans hp)]
    show V m c main_arg0 (((cfg0.win 0).blk t).view.emb (ix4 0 (j 2) (j 4) (chan (j 5)))) = _
    refine congrArg (V m c main_arg0) (funext fun a => Fin.ext ?_)
    match a with
    | ⟨0, _⟩ => show win0_0.index t (0 : Fin 4) * 1 + 1 * 0 = win0_2.index t (1 : Fin 6) * 1 + 1 * (j 1).val; omega
    | ⟨1, _⟩ => show win0_0.index t (1 : Fin 4) * 64 + 1 * (j 2).val = win0_2.index t (2 : Fin 6) * 64 + 1 * (j 2).val; omega
    | ⟨2, _⟩ => show win0_0.index t (2 : Fin 4) * 128 + 1 * (j 4).val = win0_2.index t (4 : Fin 6) * 128 + 1 * (j 4).val; omega
    | ⟨3, _⟩ => show win0_0.index t (3 : Fin 4) * 64 + 1 * ((j 5).val % 64) = (win0_2.index t (5 : Fin 6) * 128 + 1 * (j 5).val) % 64; omega
  · rw [if_neg hp, if_neg (by rw [hE0]; exact hp)]
    show V m c main_arg1 (((cfg0.win 1).blk t).view.emb (ix4 0 (j 2) (j 4) (chan (j 5)))) = _
    refine congrArg (V m c main_arg1) (funext fun a => Fin.ext ?_)
    match a with
    | ⟨0, _⟩ => show win0_1.index t (0 : Fin 4) * 1 + 1 * 0 = win0_2.index t (1 : Fin 6) * 1 + 1 * (j 1).val; omega
    | ⟨1, _⟩ => show win0_1.index t (1 : Fin 4) * 64 + 1 * (j 2).val = win0_2.index t (2 : Fin 6) * 64 + 1 * (j 2).val; omega
    | ⟨2, _⟩ => show win0_1.index t (2 : Fin 4) * 128 + 1 * (j 4).val = win0_2.index t (4 : Fin 6) * 128 + 1 * (j 4).val; omega
    | ⟨3, _⟩ => show win0_1.index t (3 : Fin 4) * 64 + 1 * ((j 5).val % 64) = (win0_2.index t (5 : Fin 6) * 128 + 1 * (j 5).val) % 64; omega

/-- An index of the array is in point `t`'s block iff each coordinate is in the block's range on its axis. -/
theorem mem_blk (t : Fin cfg0.N) (i : S2x16x128x2x128x128.Idx) :
    i ∈ ((cfg0.win 2).blk t).view.set ↔ ∀ a : Fin 6, win0_2.index t a * S2x1x64x2x128x128.size a ≤ (i a).val
      ∧ (i a).val < win0_2.index t a * S2x1x64x2x128x128.size a + S2x1x64x2x128x128.size a := by
  show i ∈ ((View.whole main_v0).slice (win0_2.rect t)).set ↔ _
  rw [View.set_slice_whole, Rect.mem_set_unit]
  exact Iff.rfl

/-- THE COVER: every index (p, b, h, a, w, l) of the array is in the block of the point (b, h / 64). -/
theorem cover (i : S2x16x128x2x128x128.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 128 := (i 2).isLt
  have hi3 : (i 3).val < 2 := (i 3).isLt
  have hi4 : (i 4).val < 128 := (i 4).isLt
  have hi5 : (i 5).val < 128 := (i 5).isLt
  obtain ⟨t, ht⟩ := idx_onto ⟨(i 1).val, hi1⟩ ⟨(i 2).val / 64, by omega⟩
  have q0 : win0_2.index t (0 : Fin 6) = 0 := congrFun ht 0
  have q1 : win0_2.index t (1 : Fin 6) = (i 1).val := congrFun ht 1
  have q2 : win0_2.index t (2 : Fin 6) = (i 2).val / 64 := congrFun ht 2
  have q3 : win0_2.index t (3 : Fin 6) = 0 := congrFun ht 3
  have q4 : win0_2.index t (4 : Fin 6) = 0 := congrFun ht 4
  have q5 : win0_2.index t (5 : Fin 6) = 0 := congrFun ht 5
  refine ⟨t, flush0_2 t, ?_⟩
  rw [mem_blk]
  intro a
  match a with
  | ⟨0, _⟩ => show win0_2.index t (0 : Fin 6) * 2 ≤ (i 0).val ∧ (i 0).val < win0_2.index t (0 : Fin 6) * 2 + 2; omega
  | ⟨1, _⟩ => show win0_2.index t (1 : Fin 6) * 1 ≤ (i 1).val ∧ (i 1).val < win0_2.index t (1 : Fin 6) * 1 + 1; omega
  | ⟨2, _⟩ => show win0_2.index t (2 : Fin 6) * 64 ≤ (i 2).val ∧ (i 2).val < win0_2.index t (2 : Fin 6) * 64 + 64; omega
  | ⟨3, _⟩ => show win0_2.index t (3 : Fin 6) * 2 ≤ (i 3).val ∧ (i 3).val < win0_2.index t (3 : Fin 6) * 2 + 2; omega
  | ⟨4, _⟩ => show win0_2.index t (4 : Fin 6) * 128 ≤ (i 4).val ∧ (i 4).val < win0_2.index t (4 : Fin 6) * 128 + 128; omega
  | ⟨5, _⟩ => show win0_2.index t (5 : Fin 6) * 128 ≤ (i 5).val ∧ (i 5).val < win0_2.index t (5 : Fin 6) * 128 + 128; omega

/-- THE ARRAY after the run: `native` of the two input arrays. -/
theorem final (c : Dev nD) :
    (dats m 0 c).arrAt 2 cfg0.N = native (V m c main_arg0) (V m c main_arg1) :=
  (dats m 0 c).arrAt_eq_of_cover 2 _ (fun t _ => flushed_eq m c t) cover

end Cert.Upsample.Kern

end
-- ==== Proof.KernelTail.lean ====
/-
  The kernel program's result. After the grid the program re-shapes the [2, 16, 128, 2, 128, 128] array the kernel
  wrote to [2, 16, 256, 256, 64]. The two shapes list the same entries in the same row-major order: position
  ((((p·16 + b)·128 + h)·2 + a)·128 + w)·128 + l of the first is position (((p·16 + b)·256 + i)·256 + j)·64 + c of
  the second exactly when i = 2 h + a, j = 2 w + d and l = 64 d + c. So entry (p, b, i, j, c) of the result is the
  written array's entry (p, b, i / 2, i mod 2, j / 2, 64 (j mod 2) + c), which is entry (b, i / 2, j / 2, c) of
  input p: the doubled stack `up`.
-/
import proofs.«131714_j13778255086287_2_alg».proof.Proof.KernelArr
import Idealize.ShloMosaic.Lib.StableHlo.Run

noncomputable section

namespace Cert.Upsample.Kern

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The re-shaped array is the doubled stack. -/
theorem reshape_native {α : Type} (x0 x1 : S16x128x128x64.Idx → α)
    (hs : S2x16x128x2x128x128.ShapeCasts S2x16x256x256x64) :
    shapeCast S2x16x256x256x64 (native x0 x1) hs = up x0 x1 := by
  funext j
  obtain ⟨p, b, i, jj, c, rfl⟩ : ∃ (p : Fin 2) (b : Fin 16) (i jj : Fin 256) (c : Fin 64), j = ix5 p b i jj c :=
    ⟨j 0, j 1, j 2, j 3, j 4, eq_ix5 j⟩
  have hp := p.isLt; have hb := b.isLt; have hi := i.isLt; have hj := jj.isLt; have hc := c.isLt
  refine (shapeCast_apply _ _ (ix5 p b i jj c)
    (ix6 p b (half i) (⟨i.val % 2, by omega⟩ : Fin 2) (half jj) (⟨64 * (jj.val % 2) + c.val, by omega⟩ : Fin 128)) ?_).trans ?_
  · rw [Shape.rowMajor_val_six, Shape.rowMajor_val_five]
    show ((((p.val * 16 + b.val) * 128 + i.val / 2) * 2 + i.val % 2) * 128 + jj.val / 2) * 128 + (64 * (jj.val % 2) + c.val)
      = (((p.val * 16 + b.val) * 256 + i.val) * 256 + jj.val) * 64 + c.val
    omega
  · rw [native_ix, up_ix]
    have hch : chan (⟨64 * (jj.val % 2) + c.val, by omega⟩ : Fin 128) = c := Fin.ext (by show (64 * (jj.val % 2) + c.val) % 64 = c.val; omega)
    rw [hch]

/-- The program's result buffer is no array of the pipeline and is not scoped. -/
theorem v1_rest : main_v1 ∈ Pipeline.restRefs sig (cfgs 0).spec :=
  Pipeline.mem_restRefs_of main_v1 rfl (by decide)

/-- What the line after the grid leaves in the result buffer: the re-shaping of the array the kernel wrote. -/
theorem tail_eq (c : Dev nD) :
    Pipeline.afterTail₀ cfgs (dats m) 0 (V0 m) [hostOps1] c main_v1
      = shapeCast S2x16x256x256x64 ((dats m 0 c).arrAt 2 cfg0.N) Facts₀.shapeCasts_S2x16x128x2x128x128_S2x16x256x256x64 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = (dats m 0 c).arrAt 2 cfg0.N :=
    Pipeline.withArrays_arr spec0 launch0.win.arr_inj c _ _ 2
  rw [e]
  rfl

/-- THE RUN: every weakly fair execution of the kernel program ends with the result buffer at the doubled stack of the
    two argument arrays, the arguments unchanged. -/
theorem run : θ_run defs (onTc (τ := τ) (main (F := F))) ⟨m, fun _ => 0, ρ⟩ fun r => ∀ c : Dev nD,
      r.2.mem ((c : Thread nD τ).loc main_v1) = up (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 v1_rest).trans ((tail_eq m c).trans (by
        rw [final m c]; exact reshape_native _ _ _)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Upsample.Kern

end
-- ==== Proof.RefSpec.lean ====
/-
  The reference program's result as ONE term of its two argument arrays, composed from the operations the
  program applies, in three layers:

  * `floorDiv a b`: jnp's floor division of a vector of 256 signed words by a scalar word — the truncated
    quotient, less one where the signs differ and the remainder is not zero;
  * `srcIdx`: the source coordinate of each of the 256 doubled rows (or columns), `(i * 128) floordiv 256`,
    wrapped by `+ 128` where negative (it never is), as a [256, 1] array of start indices;
  * `doubled x`: `x` gathered along its row axis at `srcIdx`, then along its column axis at `srcIdx`;
    `refOut x0 x1`: the two doubled arrays stacked on a new leading axis.
-/
import proofs.«131714_j13778255086287_2_alg».proof.Proof.Gen.ReferenceIdeal

noncomputable section

namespace Cert.Upsample.Ref

open Idealize.ShloMosaic Cert.ReferenceIdeal Cert.ReferenceIdeal.Facts₀

/-- A scalar word splat over the 256 positions. -/
abbrev splat (b : IVec S_ 32) : IVec S256 32 := broadcastInDim S256 ![] bcast_S_S256 b

/-- jnp's floor division of 256 signed words by a scalar word. -/
def floorDiv (a : IVec S256 32) (b : IVec S_ 32) : IVec S256 32 :=
  select
    (andi (cmpi .ne (signi a) (splat (signi (id b))))
          (cmpi .ne (Host.remsi a (splat (id b))) (splat (constantI S_ 32 0#32))))
    (subi (Host.divsi a (splat (id b))) (splat (constantI S_ 32 1#32)))
    (Host.divsi a (splat (id b)))

/-- The floor quotients `(i * 128) floordiv 256` for `i < 256`. -/
def quot : IVec S256 32 :=
  floorDiv (muli (iotaInDim S256 32 0) (splat (constantI S_ 32 128#32))) (constantI S_ 32 256#32)

/-- The source coordinates as start indices: the quotients, wrapped where negative, as a [256, 1] array. -/
def srcIdx : IVec S256x1 32 :=
  broadcastInDim S256x1 ![0] bcast_S256_S256x1_0
    (select (cmpi .slt quot (splat (constantI S_ 32 0#32)))
            (addi quot (splat (constantI S_ 32 128#32)))
            quot)

/-- An array with its rows, then its columns, gathered at the source coordinates. -/
def doubled {α : Type} (x : S16x128x128x64.Idx → α) : S16x256x256x64.Idx → α :=
  Host.gather gather_S16x256x128x64_S256x1_S16x256x256x64_013_2_n_n_2_1_16256164
    (Host.gather gather_S16x128x128x64_S256x1_S16x256x128x64_023_1_n_n_1_1_16112864 x srcIdx) srcIdx

/-- The two doubled arrays stacked on a new leading axis. -/
def refOut {α : Type} (x0 x1 : S16x128x128x64.Idx → α) : S2x16x256x256x64.Idx → α :=
  concatenate S2x16x256x256x64 0
    [⟨S1x16x256x256x64, broadcastInDim S1x16x256x256x64 ![1, 2, 3, 4] bcast_S16x256x256x64_S1x16x256x256x64_1_2_3_4 (doubled x0)⟩,
     ⟨S1x16x256x256x64, broadcastInDim S1x16x256x256x64 ![1, 2, 3, 4] bcast_S16x256x256x64_S1x16x256x256x64_1_2_3_4 (doubled x1)⟩]
    concatenates_S1x16x256x256x64_S1x16x256x256x64_S2x16x256x256x64_d0

end Cert.Upsample.Ref

end
-- ==== Proof.RefRun.lean ====
/-
  The reference program's run, read back as one pure term of its two argument arrays.

  The program is a straight line: every call of an outlined function executes the callee's body on the
  call's own buffers, so with the four floor divisions (and the selection each ends in) written out at
  their call sites the program is a list of 127 elementwise operations, gathers, broadcasts and one
  concatenation, each writing one buffer that no later operation overwrites. Such a line terminates from
  any memory, leaves the two argument arrays as they were, and leaves in the result buffer the composition
  of the operations' functions along the data flow: the two arrays each gathered along the row axis and
  then along the column axis at the source coordinates `(i * 128) floordiv 256`, the two results
  stacked on a new leading axis, which is `Cert.Upsample.Ref.refOut`. The four computations of the
  source coordinates are the same term, so the composition is `refOut` of the arguments on the nose.
-/
import proofs.«131714_j13778255086287_2_alg».proof.Proof.RefSpec
import Idealize.ShloMosaic.Lib.StableHlo.Run
import Idealize.ShloMosaic.PureOps.Ideal

noncomputable section

namespace Cert.Upsample.RefRun

open Idealize.ShloMosaic Idealize.ShloMosaic.TcCoe Idealize.SL.Sem Idealize.ShloMosaic.StableHlo Cert.ReferenceIdeal
open Cert.ReferenceIdeal.Facts₀

variable {F : FTy → Type} [FloatOps F]
/-- The program's 127 operations in order, each call's body written out over that call's buffers: a floor
    division is seventeen — the divisor converted to its own type and splat, the truncated quotient, the two
    signs and their comparison, the remainder and its comparison with zero, the conjunction, the quotient less
    one, and the selection between the two quotients. -/
abbrev ops : List (HloOp τ sig (Elt F)) :=
  [ nullary main_v0 (iotaInDim S256 32 0),
    nullary main_c (constantI S_ 32 128#32),
    unary main_c main_v1 (broadcastInDim S256 ![] bcast_S_S256 : (⟨S_, .i32⟩ : BufTy).Contents (Elt F) → (⟨S256, .i32⟩ : BufTy).Contents (Elt F)),
    binary main_v0 main_v1 main_v2 (muli : (⟨S256, .i32⟩ : BufTy).Contents (Elt F) → (⟨S256, .i32⟩ : BufTy).Contents (Elt F) → (⟨S256, .i32⟩ : BufTy).Contents (Elt F)),
    nullary main_c_0 (constantI S_ 32 256#32),
    TRef.unary (.of main_c_0) main_call0.v0 id,
    TRef.unary main_call0.v0 main_call0.v1 (broadcastInDim S256 ![] bcast_S_S256),
    TRef.binary (.of main_v2) main_call0.v1 main_call0.v2 Host.divsi,
    TRef.unary (.of main_v2) main_call0.v3 signi,
    TRef.unary main_call0.v0 main_call0.v4 signi,
    TRef.unary main_call0.v4 main_call0.v5 (broadcastInDim S256 ![] bcast_S_S256),
    TRef.binary main_call0.v3 main_call0.v5 main_call0.v6 (cmpi .ne),
    TRef.unary main_call0.v0 main_call0.v7 (broadcastInDim S256 ![] bcast_S_S256),
    TRef.binary (.of main_v2) main_call0.v7 main_call0.v8 Host.remsi,
    TRef.nullary main_call0.c (constantI S_ 32 0#32),
    TRef.unary main_call0.c main_call0.v9 (broadcastInDim S256 ![] bcast_S_S256),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S256 ![] bcast_S_S256),
    TRef.binary main_call0.v2 main_call0.v12 main_call0.v13 subi,
    TRef.ternary main_call0.v11 main_call0.v13 main_call0.v2 main_call0.call0.v0 select,
    nullary main_v4 (iotaInDim S256 32 0),
    nullary main_c_1 (constantI S_ 32 128#32),
    unary main_c_1 main_v5 (broadcastInDim S256 ![] bcast_S_S256 : (⟨S_, .i32⟩ : BufTy).Contents (Elt F) → (⟨S256, .i32⟩ : BufTy).Contents (Elt F)),
    binary main_v4 main_v5 main_v6 (muli : (⟨S256, .i32⟩ : BufTy).Contents (Elt F) → (⟨S256, .i32⟩ : BufTy).Contents (Elt F) → (⟨S256, .i32⟩ : BufTy).Contents (Elt F)),
    nullary main_c_2 (constantI S_ 32 256#32),
    TRef.unary (.of main_c_2) main_call1.v0 id,
    TRef.unary main_call1.v0 main_call1.v1 (broadcastInDim S256 ![] bcast_S_S256),
    TRef.binary (.of main_v6) main_call1.v1 main_call1.v2 Host.divsi,
    TRef.unary (.of main_v6) main_call1.v3 signi,
    TRef.unary main_call1.v0 main_call1.v4 signi,
    TRef.unary main_call1.v4 main_call1.v5 (broadcastInDim S256 ![] bcast_S_S256),
    TRef.binary main_call1.v3 main_call1.v5 main_call1.v6 (cmpi .ne),
    TRef.unary main_call1.v0 main_call1.v7 (broadcastInDim S256 ![] bcast_S_S256),
    TRef.binary (.of main_v6) main_call1.v7 main_call1.v8 Host.remsi,
    TRef.nullary main_call1.c (constantI S_ 32 0#32),
    TRef.unary main_call1.c main_call1.v9 (broadcastInDim S256 ![] bcast_S_S256),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S256 ![] bcast_S_S256),
    TRef.binary main_call1.v2 main_call1.v12 main_call1.v13 subi,
    TRef.ternary main_call1.v11 main_call1.v13 main_call1.v2 main_call1.call0.v0 select,
    nullary main_c_3 (constantI S_ 32 0#32),
    unary main_c_3 main_v8 (broadcastInDim S256 ![] bcast_S_S256 : (⟨S_, .i32⟩ : BufTy).Contents (Elt F) → (⟨S256, .i32⟩ : BufTy).Contents (Elt F)),
    binary main_v3 main_v8 main_v9 (cmpi .slt : (⟨S256, .i32⟩ : BufTy).Contents (Elt F) → (⟨S256, .i32⟩ : BufTy).Contents (Elt F) → (⟨S256, .i1⟩ : BufTy).Contents (Elt F)),
    nullary main_c_4 (constantI S_ 32 128#32),
    unary main_c_4 main_v10 (broadcastInDim S256 ![] bcast_S_S256 : (⟨S_, .i32⟩ : BufTy).Contents (Elt F) → (⟨S256, .i32⟩ : BufTy).Contents (Elt F)),
    binary main_v3 main_v10 main_v11 (addi : (⟨S256, .i32⟩ : BufTy).Contents (Elt F) → (⟨S256, .i32⟩ : BufTy).Contents (Elt F) → (⟨S256, .i32⟩ : BufTy).Contents (Elt F)),
    ternary main_v9 main_v11 main_v3 main_v12 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v12 main_v13 (broadcastInDim S256x1 ![0] bcast_S256_S256x1_0 : (⟨S256, .i32⟩ : BufTy).Contents (Elt F) → (⟨S256x1, .i32⟩ : BufTy).Contents (Elt F)),
    binary main_arg0 main_v13 main_v14 ((fun x i => Host.gather gather_S16x128x128x64_S256x1_S16x256x128x64_023_1_n_n_1_1_16112864 x i) : (⟨S16x128x128x64, .f32⟩ : BufTy).Contents (Elt F) → (⟨S256x1, .i32⟩ : BufTy).Contents (Elt F) → (⟨S16x256x128x64, .f32⟩ : BufTy).Contents (Elt F)),
    nullary main_c_5 (constantI S_ 32 0#32),
    unary main_c_5 main_v15 (broadcastInDim S256 ![] bcast_S_S256 : (⟨S_, .i32⟩ : BufTy).Contents (Elt F) → (⟨S256, .i32⟩ : BufTy).Contents (Elt F)),
    binary main_v7 main_v15 main_v16 (cmpi .slt : (⟨S256, .i32⟩ : BufTy).Contents (Elt F) → (⟨S256, .i32⟩ : BufTy).Contents (Elt F) → (⟨S256, .i1⟩ : BufTy).Contents (Elt F)),
    nullary main_c_6 (constantI S_ 32 128#32),
    unary main_c_6 main_v17 (broadcastInDim S256 ![] bcast_S_S256 : (⟨S_, .i32⟩ : BufTy).Contents (Elt F) → (⟨S256, .i32⟩ : BufTy).Contents (Elt F)),
    binary main_v7 main_v17 main_v18 (addi : (⟨S256, .i32⟩ : BufTy).Contents (Elt F) → (⟨S256, .i32⟩ : BufTy).Contents (Elt F) → (⟨S256, .i32⟩ : BufTy).Contents (Elt F)),
    ternary main_v16 main_v18 main_v7 main_v19 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v19 main_v20 (broadcastInDim S256x1 ![0] bcast_S256_S256x1_0 : (⟨S256, .i32⟩ : BufTy).Contents (Elt F) → (⟨S256x1, .i32⟩ : BufTy).Contents (Elt F)),
    binary main_v14 main_v20 main_v21 ((fun x i => Host.gather gather_S16x256x128x64_S256x1_S16x256x256x64_013_2_n_n_2_1_16256164 x i) : (⟨S16x256x128x64, .f32⟩ : BufTy).Contents (Elt F) → (⟨S256x1, .i32⟩ : BufTy).Contents (Elt F) → (⟨S16x256x256x64, .f32⟩ : BufTy).Contents (Elt F)),
    nullary main_v22 (iotaInDim S256 32 0),
    nullary main_c_7 (constantI S_ 32 128#32),
    unary main_c_7 main_v23 (broadcastInDim S256 ![] bcast_S_S256 : (⟨S_, .i32⟩ : BufTy).Contents (Elt F) → (⟨S256, .i32⟩ : BufTy).Contents (Elt F)),
    binary main_v22 main_v23 main_v24 (muli : (⟨S256, .i32⟩ : BufTy).Contents (Elt F) → (⟨S256, .i32⟩ : BufTy).Contents (Elt F) → (⟨S256, .i32⟩ : BufTy).Contents (Elt F)),
    nullary main_c_8 (constantI S_ 32 256#32),
    TRef.unary (.of main_c_8) main_call2.v0 id,
    TRef.unary main_call2.v0 main_call2.v1 (broadcastInDim S256 ![] bcast_S_S256),
    TRef.binary (.of main_v24) main_call2.v1 main_call2.v2 Host.divsi,
    TRef.unary (.of main_v24) main_call2.v3 signi,
    TRef.unary main_call2.v0 main_call2.v4 signi,
    TRef.unary main_call2.v4 main_call2.v5 (broadcastInDim S256 ![] bcast_S_S256),
    TRef.binary main_call2.v3 main_call2.v5 main_call2.v6 (cmpi .ne),
    TRef.unary main_call2.v0 main_call2.v7 (broadcastInDim S256 ![] bcast_S_S256),
    TRef.binary (.of main_v24) main_call2.v7 main_call2.v8 Host.remsi,
    TRef.nullary main_call2.c (constantI S_ 32 0#32),
    TRef.unary main_call2.c main_call2.v9 (broadcastInDim S256 ![] bcast_S_S256),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S256 ![] bcast_S_S256),
    TRef.binary main_call2.v2 main_call2.v12 main_call2.v13 subi,
    TRef.ternary main_call2.v11 main_call2.v13 main_call2.v2 main_call2.call0.v0 select,
    nullary main_v26 (iotaInDim S256 32 0),
    nullary main_c_9 (constantI S_ 32 128#32),
    unary main_c_9 main_v27 (broadcastInDim S256 ![] bcast_S_S256 : (⟨S_, .i32⟩ : BufTy).Contents (Elt F) → (⟨S256, .i32⟩ : BufTy).Contents (Elt F)),
    binary main_v26 main_v27 main_v28 (muli : (⟨S256, .i32⟩ : BufTy).Contents (Elt F) → (⟨S256, .i32⟩ : BufTy).Contents (Elt F) → (⟨S256, .i32⟩ : BufTy).Contents (Elt F)),
    nullary main_c_10 (constantI S_ 32 256#32),
    TRef.unary (.of main_c_10) main_call3.v0 id,
    TRef.unary main_call3.v0 main_call3.v1 (broadcastInDim S256 ![] bcast_S_S256),
    TRef.binary (.of main_v28) main_call3.v1 main_call3.v2 Host.divsi,
    TRef.unary (.of main_v28) main_call3.v3 signi,
    TRef.unary main_call3.v0 main_call3.v4 signi,
    TRef.unary main_call3.v4 main_call3.v5 (broadcastInDim S256 ![] bcast_S_S256),
    TRef.binary main_call3.v3 main_call3.v5 main_call3.v6 (cmpi .ne),
    TRef.unary main_call3.v0 main_call3.v7 (broadcastInDim S256 ![] bcast_S_S256),
    TRef.binary (.of main_v28) main_call3.v7 main_call3.v8 Host.remsi,
    TRef.nullary main_call3.c (constantI S_ 32 0#32),
    TRef.unary main_call3.c main_call3.v9 (broadcastInDim S256 ![] bcast_S_S256),
    TRef.binary main_call3.v8 main_call3.v9 main_call3.v10 (cmpi .ne),
    TRef.binary main_call3.v6 main_call3.v10 main_call3.v11 andi,
    TRef.nullary main_call3.c_0 (constantI S_ 32 1#32),
    TRef.unary main_call3.c_0 main_call3.v12 (broadcastInDim S256 ![] bcast_S_S256),
    TRef.binary main_call3.v2 main_call3.v12 main_call3.v13 subi,
    TRef.ternary main_call3.v11 main_call3.v13 main_call3.v2 main_call3.call0.v0 select,
    nullary main_c_11 (constantI S_ 32 0#32),
    unary main_c_11 main_v30 (broadcastInDim S256 ![] bcast_S_S256 : (⟨S_, .i32⟩ : BufTy).Contents (Elt F) → (⟨S256, .i32⟩ : BufTy).Contents (Elt F)),
    binary main_v25 main_v30 main_v31 (cmpi .slt : (⟨S256, .i32⟩ : BufTy).Contents (Elt F) → (⟨S256, .i32⟩ : BufTy).Contents (Elt F) → (⟨S256, .i1⟩ : BufTy).Contents (Elt F)),
    nullary main_c_12 (constantI S_ 32 128#32),
    unary main_c_12 main_v32 (broadcastInDim S256 ![] bcast_S_S256 : (⟨S_, .i32⟩ : BufTy).Contents (Elt F) → (⟨S256, .i32⟩ : BufTy).Contents (Elt F)),
    binary main_v25 main_v32 main_v33 (addi : (⟨S256, .i32⟩ : BufTy).Contents (Elt F) → (⟨S256, .i32⟩ : BufTy).Contents (Elt F) → (⟨S256, .i32⟩ : BufTy).Contents (Elt F)),
    ternary main_v31 main_v33 main_v25 main_v34 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v34 main_v35 (broadcastInDim S256x1 ![0] bcast_S256_S256x1_0 : (⟨S256, .i32⟩ : BufTy).Contents (Elt F) → (⟨S256x1, .i32⟩ : BufTy).Contents (Elt F)),
    binary main_arg1 main_v35 main_v36 ((fun x i => Host.gather gather_S16x128x128x64_S256x1_S16x256x128x64_023_1_n_n_1_1_16112864 x i) : (⟨S16x128x128x64, .f32⟩ : BufTy).Contents (Elt F) → (⟨S256x1, .i32⟩ : BufTy).Contents (Elt F) → (⟨S16x256x128x64, .f32⟩ : BufTy).Contents (Elt F)),
    nullary main_c_13 (constantI S_ 32 0#32),
    unary main_c_13 main_v37 (broadcastInDim S256 ![] bcast_S_S256 : (⟨S_, .i32⟩ : BufTy).Contents (Elt F) → (⟨S256, .i32⟩ : BufTy).Contents (Elt F)),
    binary main_v29 main_v37 main_v38 (cmpi .slt : (⟨S256, .i32⟩ : BufTy).Contents (Elt F) → (⟨S256, .i32⟩ : BufTy).Contents (Elt F) → (⟨S256, .i1⟩ : BufTy).Contents (Elt F)),
    nullary main_c_14 (constantI S_ 32 128#32),
    unary main_c_14 main_v39 (broadcastInDim S256 ![] bcast_S_S256 : (⟨S_, .i32⟩ : BufTy).Contents (Elt F) → (⟨S256, .i32⟩ : BufTy).Contents (Elt F)),
    binary main_v29 main_v39 main_v40 (addi : (⟨S256, .i32⟩ : BufTy).Contents (Elt F) → (⟨S256, .i32⟩ : BufTy).Contents (Elt F) → (⟨S256, .i32⟩ : BufTy).Contents (Elt F)),
    ternary main_v38 main_v40 main_v29 main_v41 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v41 main_v42 (broadcastInDim S256x1 ![0] bcast_S256_S256x1_0 : (⟨S256, .i32⟩ : BufTy).Contents (Elt F) → (⟨S256x1, .i32⟩ : BufTy).Contents (Elt F)),
    binary main_v36 main_v42 main_v43 ((fun x i => Host.gather gather_S16x256x128x64_S256x1_S16x256x256x64_013_2_n_n_2_1_16256164 x i) : (⟨S16x256x128x64, .f32⟩ : BufTy).Contents (Elt F) → (⟨S256x1, .i32⟩ : BufTy).Contents (Elt F) → (⟨S16x256x256x64, .f32⟩ : BufTy).Contents (Elt F)),
    unary main_v21 main_v44 (broadcastInDim S1x16x256x256x64 ![1, 2, 3, 4] bcast_S16x256x256x64_S1x16x256x256x64_1_2_3_4 : (⟨S16x256x256x64, .f32⟩ : BufTy).Contents (Elt F) → (⟨S1x16x256x256x64, .f32⟩ : BufTy).Contents (Elt F)),
    unary main_v43 main_v45 (broadcastInDim S1x16x256x256x64 ![1, 2, 3, 4] bcast_S16x256x256x64_S1x16x256x256x64_1_2_3_4 : (⟨S16x256x256x64, .f32⟩ : BufTy).Contents (Elt F) → (⟨S1x16x256x256x64, .f32⟩ : BufTy).Contents (Elt F)),
    binary main_v44 main_v45 main_v46 ((fun a b => concatenate S2x16x256x256x64 0 [⟨S1x16x256x256x64, a⟩, ⟨S1x16x256x256x64, b⟩] concatenates_S1x16x256x256x64_S1x16x256x256x64_S2x16x256x256x64_d0) : (⟨S1x16x256x256x64, .f32⟩ : BufTy).Contents (Elt F) → (⟨S1x16x256x256x64, .f32⟩ : BufTy).Contents (Elt F) → (⟨S2x16x256x256x64, .f32⟩ : BufTy).Contents (Elt F)) ]

set_option maxRecDepth 8192 in
set_option maxHeartbeats 4000000 in
/-- The program is that line: with the callees' definitions unfolded at their calls and sequencing
    reassociated, both sides are one chain of the same steps. -/
theorem main_eq (c : Dev nD) : main (F := F) c = seq ops := by
  simp only [main, main_part0, main_part1, fn_floor_divide.body, fn_where.body, seq, bind_assoc, pure_bind]

/-- No buffer of the program is scoped to a region. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

set_option maxRecDepth 8192 in
/-- Every operation reads and writes buffers of the TensorCore only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., nullary_bufs_sub ..,
    unary_bufs_sub .., binary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., nullary_bufs_sub .., unary_bufs_sub .., binary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., nullary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub ..⟩

attribute [local irreducible] Host.gather Host.divsi Host.remsi concatenate in
set_option maxRecDepth 16384 in
set_option maxHeartbeats 8000000 in
/-- The result buffer after the line holds `refOut` of the two arguments: each operation's result is its
    function of its operands' contents, and followed back along the data flow from the concatenation these
    compose to the term `refOut` is defined as. -/
theorem out_eq (V : Valuation τ sig (Elt F)) :
    after ops V (main_v46 : DevRef τ sig)
      = Cert.Upsample.Ref.refOut (V (main_arg0 : DevRef τ sig)) (V (main_arg1 : DevRef τ sig)) := by
  after_results_simp
  rfl

set_option maxRecDepth 16384 in
set_option maxHeartbeats 8000000 in
/-- No operation writes the first argument's buffer. -/
theorem arg0_eq (V : Valuation τ sig (Elt F)) :
    after ops V (main_arg0 : DevRef τ sig) = V (main_arg0 : DevRef τ sig) := by
  after_results_simp

set_option maxRecDepth 16384 in
set_option maxHeartbeats 8000000 in
/-- No operation writes the second argument's buffer. -/
theorem arg1_eq (V : Valuation τ sig (Elt F)) :
    after ops V (main_arg1 : DevRef τ sig) = V (main_arg1 : DevRef τ sig) := by
  after_results_simp

set_option maxRecDepth 16384 in
set_option maxHeartbeats 8000000 in
/-- On every device, for any float values, from any memory with zero counters: every weakly fair execution of
    the program terminates with the result buffer at `refOut` of the arguments' launch contents and the
    arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v46)
          = Cert.Upsample.Ref.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (out_eq _),
      (h c main_arg0).trans (arg0_eq _),
      (h c main_arg1).trans (arg1_eq _)⟩)
    (run_seq scopedRefs_eq scopedSems_eq defs main (fun _ => ops) main_eq (fun _ => ops_sub) m ρ)

/-- The same at the ideal instance: floats extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46)
          = Cert.Upsample.Ref.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run_gen m ρ

end Cert.Upsample.RefRun

end
-- ==== Proof.RefValue.lean ====
/-
  The reference's value: `refOut x0 x1 = up x0 x1` for any two arrays of any element type.

  * The source coordinates. `srcIdx` is a closed array of 256 words: position p holds (p * 128) floordiv 256,
    wrapped by + 128 where negative. For 0 ≤ p < 256 the product is below 2^15, so nothing overflows, the
    truncated quotient needs no correction of sign, and the value is p / 2, never negative and below 128. Both
    the word itself (`srcIdx_val`) and the word as a gather reads it — signed, clamped into [0, 127] —
    (`srcIdx_clamp`) are checked over the 256 positions by evaluation.
  * The two gathers at an index, for ANY array of start indices (`gather_rows_apply`, `gather_cols_apply`).
    A gather reads its operand at, per operand axis, clamped start + batching coordinate + offset coordinate.
    Neither gather has batching axes. On the one axis the start-index map names (the row axis of the first,
    the column axis of the second) the slice has size 1 and the axis is collapsed: the offset is 0 and the
    coordinate is the start index found at the result's row (column), clamped into [0, 128 − 1]. On the other
    three axes the start is 0 and the offset is the result's coordinate on the matching offset axis.
  * The assembly. `doubled x` at (b, i, j, c) is therefore x at (b, i / 2, j / 2, c) (`doubled_apply`); a new
    leading unit axis does not change the other coordinates (`lead_apply`); and the stack of the two reads
    its first piece where the leading coordinate is 0 and its second where it is 1 — which is `up`.
-/
import proofs.«131714_j13778255086287_2_alg».proof.Proof.Spec
import proofs.«131714_j13778255086287_2_alg».proof.Proof.RefSpec
import Idealize.ShloMosaic.Lib.Pipeline.Value
import Idealize.ShloMosaic.Lib.ValueIdx

namespace Cert.Upsample.Ref

open Idealize.ShloMosaic Idealize.ShloMosaic.ValueIdx Cert.ReferenceIdeal Cert.ReferenceIdeal.Facts₀

/-- The source coordinates, evaluated: position `p` of the 256 reads `p / 2`. The term is closed — a ramp, a
    product by 128, a floor division by 256 and a wrap of negatives, over 32-bit words — so the 256 positions are
    checked by evaluation. -/
theorem srcIdx_val : ∀ p : Fin 256, srcIdx (ix2 p 0) = BitVec.ofNat 32 (p.val / 2) := by
  decide +kernel

/-- Read signed and clamped into [0, 127], as a gather reads a start index, the source coordinate of position `p`
    is still `p / 2` (it is below 128 and not negative). -/
theorem srcIdx_clamp : ∀ p : Fin 256, min (srcIdx (ix2 p 0)).toInt.toNat 127 = p.val / 2 := by
  decide +kernel

/-- The first gather (along the row axis) read at an index: operand axes 0, 2, 3 are offset axes and copy the
    result's coordinates 0, 2, 3; operand axis 1 is collapsed and indexed, so its coordinate is the start index
    of the result's row, read signed and clamped into [0, 127]. -/
theorem gather_rows_apply {α : Type} (x : S16x128x128x64.Idx → α) (idx : IVec S256x1 32)
    (b : Fin 16) (i : Fin 256) (w : Fin 128) (c : Fin 64) :
    Host.gather gather_S16x128x128x64_S256x1_S16x256x128x64_023_1_n_n_1_1_16112864 x idx (ix4 b i w c)
      = x (ix4 b ⟨min (idx (ix2 i 0)).toInt.toNat 127, by omega⟩ w c) := by
  unfold Host.gather
  congr 1
  funext a
  refine Fin.ext ?_
  match a with
  | ⟨0, _⟩ =>
    show GatherDims.start _ (ix4 b i w c) idx ⟨0, by decide⟩ + GatherDims.batchCoord _ (ix4 b i w c) ⟨0, by decide⟩
        + GatherDims.offCoord _ (ix4 b i w c) ⟨0, by decide⟩ = b.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show GatherDims.start _ (ix4 b i w c) idx ⟨1, by decide⟩ + GatherDims.batchCoord _ (ix4 b i w c) ⟨1, by decide⟩
        + GatherDims.offCoord _ (ix4 b i w c) ⟨1, by decide⟩ = min (idx (ix2 i 0)).toInt.toNat 127
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : GatherDims.siIdx gather_S16x128x128x64_S256x1_S16x256x128x64_023_1_n_n_1_1_16112864 (ix4 b i w c)
        ⟨List.idxOf (⟨1, by decide⟩ : Fin S16x128x128x64.rank)
            gather_S16x128x128x64_S256x1_S16x256x128x64_023_1_n_n_1_1_16112864.startIndexMap,
          List.idxOf_lt_length_iff.2 (by decide)⟩ = ix2 i 0 := by
      funext e; refine Fin.ext ?_
      match e with
      | ⟨0, _⟩ => rfl
      | ⟨1, _⟩ => rfl
    rw [hsi]
    rfl
  | ⟨2, _⟩ =>
    show GatherDims.start _ (ix4 b i w c) idx ⟨2, by decide⟩ + GatherDims.batchCoord _ (ix4 b i w c) ⟨2, by decide⟩
        + GatherDims.offCoord _ (ix4 b i w c) ⟨2, by decide⟩ = w.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨3, _⟩ =>
    show GatherDims.start _ (ix4 b i w c) idx ⟨3, by decide⟩ + GatherDims.batchCoord _ (ix4 b i w c) ⟨3, by decide⟩
        + GatherDims.offCoord _ (ix4 b i w c) ⟨3, by decide⟩ = c.val
    rw [GatherDims.batchCoord_eq_zero _ _ _ List.not_mem_nil]
    unfold GatherDims.start
    rw [dif_neg (by decide)]
    unfold GatherDims.offCoord
    rw [dif_pos (by decide)]
    simp only [Nat.zero_add]
    rfl

/-- The second gather (along the column axis) read at an index: operand axes 0, 1, 3 are offset axes and copy the
    result's coordinates 0, 1, 3; operand axis 2 is collapsed and indexed, so its coordinate is the start index
    of the result's column, read signed and clamped into [0, 127]. -/
theorem gather_cols_apply {α : Type} (y : S16x256x128x64.Idx → α) (idx : IVec S256x1 32)
    (b : Fin 16) (i j : Fin 256) (c : Fin 64) :
    Host.gather gather_S16x256x128x64_S256x1_S16x256x256x64_013_2_n_n_2_1_16256164 y idx (ix4 b i j c)
      = y (ix4 b i ⟨min (idx (ix2 j 0)).toInt.toNat 127, by omega⟩ c) := by
  unfold Host.gather
  congr 1
  funext a
  refine Fin.ext ?_
  match a with
  | ⟨0, _⟩ =>
    show GatherDims.start _ (ix4 b i j c) idx ⟨0, by decide⟩ + GatherDims.batchCoord _ (ix4 b i j c) ⟨0, by decide⟩
        + GatherDims.offCoord _ (ix4 b i j c) ⟨0, by decide⟩ = b.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show GatherDims.start _ (ix4 b i j c) idx ⟨1, by decide⟩ + GatherDims.batchCoord _ (ix4 b i j c) ⟨1, by decide⟩
        + GatherDims.offCoord _ (ix4 b i j c) ⟨1, by decide⟩ = i.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨2, _⟩ =>
    show GatherDims.start _ (ix4 b i j c) idx ⟨2, by decide⟩ + GatherDims.batchCoord _ (ix4 b i j c) ⟨2, by decide⟩
        + GatherDims.offCoord _ (ix4 b i j c) ⟨2, by decide⟩ = min (idx (ix2 j 0)).toInt.toNat 127
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : GatherDims.siIdx gather_S16x256x128x64_S256x1_S16x256x256x64_013_2_n_n_2_1_16256164 (ix4 b i j c)
        ⟨List.idxOf (⟨2, by decide⟩ : Fin S16x256x128x64.rank)
            gather_S16x256x128x64_S256x1_S16x256x256x64_013_2_n_n_2_1_16256164.startIndexMap,
          List.idxOf_lt_length_iff.2 (by decide)⟩ = ix2 j 0 := by
      funext e; refine Fin.ext ?_
      match e with
      | ⟨0, _⟩ => rfl
      | ⟨1, _⟩ => rfl
    rw [hsi]
    rfl
  | ⟨3, _⟩ =>
    show GatherDims.start _ (ix4 b i j c) idx ⟨3, by decide⟩ + GatherDims.batchCoord _ (ix4 b i j c) ⟨3, by decide⟩
        + GatherDims.offCoord _ (ix4 b i j c) ⟨3, by decide⟩ = c.val
    rw [GatherDims.batchCoord_eq_zero _ _ _ List.not_mem_nil]
    unfold GatherDims.start
    rw [dif_neg (by decide)]
    unfold GatherDims.offCoord
    rw [dif_pos (by decide)]
    simp only [Nat.zero_add]
    rfl

/-- The doubled array read at an index: row `i` copies row `i / 2`, column `j` copies column `j / 2`. -/
theorem doubled_apply {α : Type} (x : S16x128x128x64.Idx → α) (b : Fin 16) (i j : Fin 256) (c : Fin 64) :
    doubled x (ix4 b i j c) = x (ix4 b (half i) (half j) c) := by
  unfold doubled
  rw [gather_cols_apply, gather_rows_apply]
  refine congrArg x (funext fun a => Fin.ext ?_)
  match a with
  | ⟨0, _⟩ => rfl
  | ⟨1, _⟩ => exact srcIdx_clamp i
  | ⟨2, _⟩ => exact srcIdx_clamp j
  | ⟨3, _⟩ => rfl

/-- A doubled array under a new leading unit axis reads the doubled array at the other four coordinates. -/
theorem lead_apply {α : Type} (y : S16x256x256x64.Idx → α) (b : Fin 16) (i j : Fin 256) (c : Fin 64) :
    broadcastInDim S1x16x256x256x64 ![1, 2, 3, 4] bcast_S16x256x256x64_S1x16x256x256x64_1_2_3_4 y
      (ix5 (0 : Fin 1) b i j c) = y (ix4 b i j c) := by
  refine broadcastInDim_apply _ _ y _ (ix4 b i j c) (fun a => ?_)
  match a with
  | ⟨0, _⟩ => rfl
  | ⟨1, _⟩ => rfl
  | ⟨2, _⟩ => rfl
  | ⟨3, _⟩ => rfl

/-- THE REFERENCE'S VALUE: the stacked, doubled arrays are `up`. Part 0 of the stack is the first doubled array,
    part 1 the second; each is read through its unit leading axis and then through the two gathers. -/
theorem refOut_eq_up {α : Type} (x0 x1 : Cert.ReferenceIdeal.S16x128x128x64.Idx → α) :
    Cert.Upsample.Ref.refOut x0 x1 = Cert.Upsample.up x0 x1 := by
  funext j
  obtain ⟨p, b, i, jj, c, rfl⟩ : ∃ (p : Fin 2) (b : Fin 16) (i jj : Fin 256) (c : Fin 64), j = ix5 p b i jj c :=
    ⟨j 0, j 1, j 2, j 3, j 4, eq_ix5 j⟩
  rw [up_ix]
  unfold refOut
  match p with
  | ⟨0, _⟩ =>
    rw [if_pos rfl]
    refine (concatenate_pair_apply_left (t := S2x16x256x256x64) (s₁ := S1x16x256x256x64) (s₂ := S1x16x256x256x64)
      _ _ _ _ _ rfl (ix5 (0 : Fin 1) b i jj c) (fun a => ?_)).trans ?_
    · match a with
      | ⟨0, _⟩ => rfl
      | ⟨1, _⟩ => rfl
      | ⟨2, _⟩ => rfl
      | ⟨3, _⟩ => rfl
      | ⟨4, _⟩ => rfl
    · rw [lead_apply, doubled_apply]
  | ⟨1, _⟩ =>
    rw [if_neg (by simp)]
    refine (concatenate_pair_apply_right (t := S2x16x256x256x64) (s₁ := S1x16x256x256x64) (s₂ := S1x16x256x256x64)
      _ _ _ _ _ rfl rfl (ix5 (0 : Fin 1) b i jj c) (fun a ha => ?_) (by rfl)).trans ?_
    · match a with
      | ⟨0, _⟩ => exact absurd rfl ha
      | ⟨1, _⟩ => rfl
      | ⟨2, _⟩ => rfl
      | ⟨3, _⟩ => rfl
      | ⟨4, _⟩ => rfl
    · rw [lead_apply, doubled_apply]

end Cert.Upsample.Ref
-- ==== Proof.lean ====
/-
  The certificate's claims for the nearest-neighbour 2 × 2 up-sampling of a complex image given by its real and
  imaginary parts, two arrays [16, 128, 128, 64] (image, row, column, channel), against its reference.

  Both programs compute the same array [2, 16, 256, 256, 64]: entry (p, b, i, j, c) is entry (b, i / 2, j / 2, c)
  of part p (`Cert.Upsample.up`, Proof/Spec.lean). No arithmetic is done on the entries, so the equality holds
  entry by entry for arbitrary contents, and the precondition is not used.

  * The kernel writes, at grid point (b, hh), rows 64 hh … 64 hh + 63 of image b of both parts, each row twice
    (the row-doubling axis a) and each row's 64 channels twice side by side (lane l holds channel l mod 64), into
    an array [2, 16, 128, 2, 128, 128]; the blocks of the 32 points tile that array; re-shaping it to
    [2, 16, 256, 256, 64] merges (h, a) into the row i = 2 h + a and splits the lane l = 64 d + c into the column
    j = 2 w + d and the channel c (Proof/KernelPay.lean, KernelArr.lean, KernelTail.lean).
  * The reference computes the source coordinate of doubled row (or column) i as (i · 128) floordiv 256 = i / 2,
    gathers rows and then columns at these coordinates, and stacks the two parts (Proof/RefSpec.lean, RefRun.lean,
    RefValue.lean).

  The three frame claims are the programs' runs with the results forgotten; the idealisation rewrote nothing, so
  the `preserves` claim is `True`.
-/
import proofs.«131714_j13778255086287_2_alg».proof.Defs
import proofs.«131714_j13778255086287_2_alg».proof.Proof.Gen.Kernel
import proofs.«131714_j13778255086287_2_alg».proof.Proof.Gen.Kernel.Skeleton
import proofs.«131714_j13778255086287_2_alg».proof.Proof.Gen.Kernel.Launch
import proofs.«131714_j13778255086287_2_alg».proof.Proof.Gen.Kernel.Points
import proofs.«131714_j13778255086287_2_alg».proof.Proof.Gen.Kernel.Frame
import proofs.«131714_j13778255086287_2_alg».proof.Proof.Gen.KernelIdeal
import proofs.«131714_j13778255086287_2_alg».proof.Proof.Gen.KernelIdeal.Skeleton
import proofs.«131714_j13778255086287_2_alg».proof.Proof.Gen.KernelIdeal.Launch
import proofs.«131714_j13778255086287_2_alg».proof.Proof.Gen.KernelIdeal.Points
import proofs.«131714_j13778255086287_2_alg».proof.Proof.Gen.KernelIdeal.Frame
import proofs.«131714_j13778255086287_2_alg».proof.Proof.Gen.ReferenceIdeal
import proofs.«131714_j13778255086287_2_alg».proof.Proof.Gen.Pre_finite_inputs
import proofs.«131714_j13778255086287_2_alg».proof.Proof.KernelTail
import proofs.«131714_j13778255086287_2_alg».proof.Proof.RefRun
import proofs.«131714_j13778255086287_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.Upsample.RefRun.run m ρ)

/-- Nothing was rewritten by the idealisation. -/
theorem preserves : Cert.preserves_Kernel_KernelIdeal := trivial

/-- Both idealised programs end with the doubled stack of their (agreeing) arguments. -/
theorem algebraic : Cert.algebraic_KernelIdeal_ReferenceIdeal := by
  intro m ρ m' ρ' _ hagree
  refine ⟨_, Cert.Upsample.Kern.run (F := Ideal) m ρ, ?_⟩
  refine (θ_run Cert.ReferenceIdeal.defs _ _).mono (fun _ h c => ⟨(h c).1.trans ?_, (h c).2⟩)
    (Cert.Upsample.RefRun.run m' ρ')
  rw [(hagree c).1, (hagree c).2]
  exact Cert.Upsample.Ref.refOut_eq_up _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
